-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S1x1x2048x128 : Shape := ⟨4, ![1, 1, 2048, 128]⟩
abbrev S1x1x512x128 : Shape := ⟨4, ![1, 1, 512, 128]⟩
abbrev S2048x1 : Shape := ⟨2, ![2048, 1]⟩
abbrev S2048x128 : Shape := ⟨2, ![2048, 128]⟩
abbrev S512x128 : Shape := ⟨2, ![512, 128]⟩
abbrev S128x512 : Shape := ⟨2, ![128, 512]⟩
abbrev S2048x512 : Shape := ⟨2, ![2048, 512]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_29 : BitVec 32 := 0#32
  let v44 : BitVec 1 := Scalar.cmpi .ne v43 c0_i32_29
  v44

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  transposes_S512x128_p1_0_S128x512 : S512x128.Transposes [1, 0] S128x512
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  broadcasts_S2048x1_S2048x128 : S2048x1.Broadcasts S2048x128
  shapeCasts_S2048x128_S1x1x2048x128 : S2048x128.ShapeCasts S1x1x2048x128
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x128.size a ≤ S2x16x2048x128.size a
  hwx0_0 : ∀ i : grid0.Coords, EltTy.bits .f32 = 32 ∨ (Rect.block (s := S2x16x2048x128) S1x1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x128.size a ≤ S2x16x2048x128.size a
  hwx0_1 : ∀ i : grid0.Coords, EltTy.bits .f32 = 32 ∨ (Rect.block (s := S2x16x2048x128) S1x1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x128.size a ≤ S2x16x2048x128.size a
  hwx0_2 : ∀ i : grid0.Coords, EltTy.bits .f32 = 32 ∨ (Rect.block (s := S2x16x2048x128) S1x1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x128.size a ≤ S2x16x2048x128.size a
  hwx0_3 : ∀ i : grid0.Coords, EltTy.bits .f32 = 32 ∨ (Rect.block (s := S2x16x2048x128) S1x1x2048x128.size (cc0_transform_3 i) (hinb0_3 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048, .f32⟩
  | .hbm, ⟨6, _⟩ => ⟨S_, .f32⟩
  | .hbm, ⟨7, _⟩ => ⟨S2x16x2048, .f32⟩
  | .hbm, ⟨8, _⟩ => ⟨S2x16x2048, .f32⟩
  | .hbm, ⟨9, _⟩ => ⟨S2x16x2048x1, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Blocks.lean ====
/-
  Which elements of the arrays the pipeline's blocks hold.

  The grid is [2, 16, 4], row-major: point t has coordinates (t / 64, t / 4 % 16, t % 4) = (batch b, head h, key tile j).
  The query block and the result block at t are head (b, h) whole, [1,1,2048,128] at block index (b, h, 0, 0); the key
  and value blocks are rows 512·j … 512·j + 511 of that head, [1,1,512,128] at block index (b, h, j, 0). The result block
  is written back at the head's last tile only (t % 4 = 3), and those 32 blocks tile the result array.
-/
import proofs.«140605_j22265110462923_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- A grid point's three coordinates are in their ranges. -/
theorem head_lt (t : Fin cfg0.N) : t.val / 64 < 2 ∧ t.val / 4 % 16 < 16 ∧ t.val % 4 < 4 := by
  have h := t.isLt
  have hN : cfg0.N = 128 := N_0
  omega

/-- The batch coordinate of a grid point. -/
def hb (t : Fin cfg0.N) : Fin 2 := ⟨t.val / 64, (head_lt t).1⟩

/-- The head coordinate of a grid point. -/
def hh (t : Fin cfg0.N) : Fin 16 := ⟨t.val / 4 % 16, (head_lt t).2.1⟩

/-- The key row that row `cc` of the point's key tile is: 512 · (t % 4) + cc (below 2048, so the remainder is the
    identity; it keeps the definition total). -/
def krow (t : Fin cfg0.N) (cc : Fin 512) : Fin 2048 := ⟨(512 * (t.val % 4) + cc.val) % 2048, Nat.mod_lt _ (by norm_num)⟩

/-- The query window's block index at each grid point, decided over the grid. -/
theorem idx_q : ∀ t : Fin cfg0.N, win0_0.index t (0 : Fin 4) = t.val / 64 ∧ win0_0.index t (1 : Fin 4) = t.val / 4 % 16
    ∧ win0_0.index t (2 : Fin 4) = 0 ∧ win0_0.index t (3 : Fin 4) = 0 :=
  (by decide +kernel : ∀ t : Fin grid0.N, _)

/-- The key window's block index at each grid point, decided over the grid. -/
theorem idx_k : ∀ t : Fin cfg0.N, win0_1.index t (0 : Fin 4) = t.val / 64 ∧ win0_1.index t (1 : Fin 4) = t.val / 4 % 16
    ∧ win0_1.index t (2 : Fin 4) = t.val % 4 ∧ win0_1.index t (3 : Fin 4) = 0 :=
  (by decide +kernel : ∀ t : Fin grid0.N, _)

/-- The value window's block index at each grid point, decided over the grid. -/
theorem idx_v : ∀ t : Fin cfg0.N, win0_2.index t (0 : Fin 4) = t.val / 64 ∧ win0_2.index t (1 : Fin 4) = t.val / 4 % 16
    ∧ win0_2.index t (2 : Fin 4) = t.val % 4 ∧ win0_2.index t (3 : Fin 4) = 0 :=
  (by decide +kernel : ∀ t : Fin grid0.N, _)

/-- The result window's block index at each grid point, decided over the grid. -/
theorem idx_o : ∀ t : Fin cfg0.N, win0_3.index t (0 : Fin 4) = t.val / 64 ∧ win0_3.index t (1 : Fin 4) = t.val / 4 % 16
    ∧ win0_3.index t (2 : Fin 4) = 0 ∧ win0_3.index t (3 : Fin 4) = 0 :=
  (by decide +kernel : ∀ t : Fin grid0.N, _)

/-- The query block at a point is its head's query rows: element (r, e) of the block is q[b, h, r, e]. -/
theorem q_block (c : Dev nD) (t : Fin cfg0.N) (r : Fin 2048) (e : Fin 128) :
    (iblk m c 0 t : Vec Ideal S1x1x2048x128 .f32) (ix4 0 0 r e) = m ((c : Thread nD τ).loc main_arg0) (ix4 (hb t) (hh t) r e) := by
  obtain ⟨e0, e1, e2, e3⟩ := idx_q t
  show V m c main_arg0 (((cfg0.win 0).blk t).view.emb (ix4 0 0 r e)) = V m c main_arg0 (ix4 (hb t) (hh t) r e)
  refine congrArg _ ?_
  funext a; apply Fin.ext
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 2048 + 1 * r.val = r.val; omega
  | ⟨3, _⟩ => show win0_0.index t (3 : Fin 4) * 128 + 1 * e.val = e.val; omega

/-- The key block at a point is rows 512 · j … of its head's keys: element (cc, e) of the block is k[b, h, 512 j + cc, e]. -/
theorem k_block (c : Dev nD) (t : Fin cfg0.N) (cc : Fin 512) (e : Fin 128) :
    (iblk m c 1 t : Vec Ideal S1x1x512x128 .f32) (ix4 0 0 cc e) = m ((c : Thread nD τ).loc main_arg1) (ix4 (hb t) (hh t) (krow t cc) e) := by
  obtain ⟨e0, e1, e2, e3⟩ := idx_k t
  show V m c main_arg1 (((cfg0.win 1).blk t).view.emb (ix4 0 0 cc e)) = V m c main_arg1 (ix4 (hb t) (hh t) (krow t cc) e)
  refine congrArg _ ?_
  funext a; apply Fin.ext
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 512 + 1 * cc.val = (512 * (t.val % 4) + cc.val) % 2048
              have := cc.isLt; omega
  | ⟨3, _⟩ => show win0_1.index t (3 : Fin 4) * 128 + 1 * e.val = e.val; omega

/-- The value block at a point is rows 512 · j … of its head's values: element (cc, e) of the block is v[b, h, 512 j + cc, e]. -/
theorem v_block (c : Dev nD) (t : Fin cfg0.N) (cc : Fin 512) (e : Fin 128) :
    (iblk m c 2 t : Vec Ideal S1x1x512x128 .f32) (ix4 0 0 cc e) = m ((c : Thread nD τ).loc main_arg2) (ix4 (hb t) (hh t) (krow t cc) e) := by
  obtain ⟨e0, e1, e2, e3⟩ := idx_v t
  show V m c main_arg2 (((cfg0.win 2).blk t).view.emb (ix4 0 0 cc e)) = V m c main_arg2 (ix4 (hb t) (hh t) (krow t cc) e)
  refine congrArg _ ?_
  funext a; apply Fin.ext
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 512 + 1 * cc.val = (512 * (t.val % 4) + cc.val) % 2048
              have := cc.isLt; omega
  | ⟨3, _⟩ => show win0_2.index t (3 : Fin 4) * 128 + 1 * e.val = e.val; omega

/-- An index of the result array is in the point's result block iff each coordinate is in the block's range on its axis. -/
theorem mem_blk_o (t : Fin cfg0.N) (i : S2x16x2048x128.Idx) :
    i ∈ ((cfg0.win 3).blk t).view.set ↔ ∀ a : Fin 4, win0_3.index t a * S1x1x2048x128.size a ≤ (i a).val
      ∧ (i a).val < win0_3.index t a * S1x1x2048x128.size a + S1x1x2048x128.size a := by
  show i ∈ ((View.whole main_v0).slice (win0_3.rect t)).set ↔ _
  rw [View.set_slice_whole, Rect.mem_set_unit]
  exact Iff.rfl

/-- What a head's last tile writes back is that head's block of `Gm`, when the result block it leaves is `Gm` there:
    the block does not overhang the array, so all of it is written, and element (0, 0, r, d) of the block at block index
    (b, h, 0, 0) is element (b, h, r, d) of the array. -/
theorem flushed_eq (c : Dev nD) (Gm : S2x16x2048x128.Idx → EReal)
    (hlast : ∀ t : Fin cfg0.N, t.val % 4 = 3 → ∀ (r : Fin 2048) (d : Fin 128),
        ((outsAt0 m c t.val t.isLt).1 : Vec Ideal S1x1x2048x128 .f32) (ix4 0 0 r d) = Gm (ix4 (hb t) (hh t) r d))
    (t : Fin cfg0.N) (hf : (cfg0.win 3).flush t = true) :
    (dats m 0 c).flushed 3 t = ((cfg0.win 3).blk t).view.read (Elt Ideal) Gm := by
  have h3 : t.val % 4 = 3 := (flush0_3 t).mp hf
  obtain ⟨e0, e1, e2, e3⟩ := idx_o t
  rw [flushed3]
  have key : ∀ y : S1x1x2048x128.Idx,
      ((outsAt0 m c t.val t.isLt).1 : Vec Ideal S1x1x2048x128 .f32) y = Gm (((cfg0.win 3).blk t).view.emb y) := by
    intro y
    obtain ⟨a, b, r, d, rfl⟩ : ∃ (a b : Fin 1) (r : Fin 2048) (d : Fin 128), y = ix4 a b r d := ⟨_, _, _, _, eq_ix4 y⟩
    obtain rfl : a = 0 := Subsingleton.elim _ _
    obtain rfl : b = 0 := Subsingleton.elim _ _
    rw [hlast t h3 r d]
    refine congrArg Gm ?_
    funext ax; apply Fin.ext
    match ax with
    | ⟨0, _⟩ => show t.val / 64 = win0_3.index t (0 : Fin 4) * 1 + 1 * 0; omega
    | ⟨1, _⟩ => show t.val / 4 % 16 = win0_3.index t (1 : Fin 4) * 1 + 1 * 0; omega
    | ⟨2, _⟩ => show r.val = win0_3.index t (2 : Fin 4) * 2048 + 1 * r.val; omega
    | ⟨3, _⟩ => show d.val = win0_3.index t (3 : Fin 4) * 128 + 1 * d.val; omega
  exact funext key

/-- Every index (b, h, r, d) of the result array is in the block written back at the last tile of head (b, h), the point
    64 b + 4 h + 3. -/
theorem cover_o (i : S2x16x2048x128.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 128 := (i 3).isLt
  have hN : cfg0.N = 128 := N_0
  obtain ⟨t, ht⟩ : ∃ t : Fin cfg0.N, t.val = 64 * (i 0).val + 4 * (i 1).val + 3 := ⟨⟨_, by omega⟩, rfl⟩
  obtain ⟨e0, e1, e2, e3⟩ := idx_o t
  refine ⟨t, (flush0_3 t).mpr (by omega), ?_⟩
  rw [mem_blk_o]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 2048 ≤ (i 2).val ∧ (i 2).val < win0_3.index t (2 : Fin 4) * 2048 + 2048; omega
  | ⟨3, _⟩ => show win0_3.index t (3 : Fin 4) * 128 ≤ (i 3).val ∧ (i 3).val < win0_3.index t (3 : Fin 4) * 128 + 128; omega

/-- The result array after the run is `Gm`, when every head's last tile leaves `Gm`'s values for that head in the result
    block: those blocks are what is written back, and they tile the array. -/
theorem final_of_last (c : Dev nD) (Gm : S2x16x2048x128.Idx → EReal)
    (hlast : ∀ t : Fin cfg0.N, t.val % 4 = 3 → ∀ (r : Fin 2048) (d : Fin 128),
        ((outsAt0 m c t.val t.isLt).1 : Vec Ideal S1x1x2048x128 .f32) (ix4 0 0 r d) = Gm (ix4 (hb t) (hh t) r d)) :
    (dats m 0 c).arrAt 3 cfg0.N = Gm :=
  (dats m 0 c).arrAt_eq_of_cover 3 Gm (flushed_eq m c Gm hlast) cover_o

end Cert.KernelIdeal.Blocks

end
-- ==== Proof.Pieces.lean ====
/-
  What one grid point leaves in the three carried buffers — the running row maximum, the running normaliser and
  the running weighted sum — and, at a head's last tile, in the output block, as pure functions of the point's
  blocks of q, k, v and of what the point before left.

  A head's first tile starts from the constants the kernel stores there (−∞, 0, 0); a middle tile and the last
  tile start from the previous contents; the last tile also writes the quotient of the new weighted sum by the new
  normaliser. Each buffer is stored whole, so what it holds afterwards is the stored value itself.
-/
import proofs.«140605_j22265110462923_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

variable (c : Dev nD) (i : grid0.Coords)
  (a3 : Memref sig .tc .vmem S1x1x2048x128 .f32) (h3 : a3.IsWhole)
  (a4 : Memref sig .tc .vmem S1x1x512x128 .f32) (h4 : a4.IsWhole)
  (a5 : Memref sig .tc .vmem S1x1x512x128 .f32) (h5 : a5.IsWhole)
  (a6 : Memref sig .tc .vmem S1x1x2048x128 .f32) (h6 : a6.IsWhole)
  (a7 : Memref sig .tc .vmem S2048x1 .f32) (h7 : a7.IsWhole)
  (a8 : Memref sig .tc .vmem S2048x1 .f32) (h8 : a8.IsWhole)
  (a9 : Memref sig .tc .vmem S2048x128 .f32) (h9 : a9.IsWhole)
  (x0 : Vec F S1x1x2048x128 .f32) (x1 : Vec F S1x1x512x128 .f32) (x2 : Vec F S1x1x512x128 .f32)
  (xs0 : Vec F S2048x1 .f32) (xs1 : Vec F S2048x1 .f32) (xs2 : Vec F S2048x128 .f32)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The new running maximum from the blocks of q and k and the old maximum `mp`. -/
abbrev newMax (x0 : Vec F S1x1x2048x128 .f32) (x1 : Vec F S1x1x512x128 .f32) (mp : Vec F S2048x1 .f32) : Vec F S2048x1 .f32 :=
  k0_pay2 (k0_pay8 x0 x1 mp)

/-- The new normaliser: the old one `lp` rescaled by exp (old maximum − new maximum), plus the tile's row sums. -/
abbrev newNorm (x0 : Vec F S1x1x2048x128 .f32) (x1 : Vec F S1x1x512x128 .f32) (mp lp : Vec F S2048x1 .f32) : Vec F S2048x1 .f32 :=
  k0_pay11 x0 x1 mp mp lp

/-- The new weighted sum: the old one `ap` rescaled the same way, plus the tile's weights times the block of v. -/
abbrev newAcc (x0 : Vec F S1x1x2048x128 .f32) (x1 x2 : Vec F S1x1x512x128 .f32) (mp : Vec F S2048x1 .f32)
    (ap : Vec F S2048x128 .f32) : Vec F S2048x128 .f32 :=
  k0_pay1 (k0_pay9 x0 x1 mp mp) (k0_pay10 x0 x1 mp) (k0_pay12 x2) ap

/-! ## A middle tile -/

theorem mid_max (hc0 : ¬cond0_0 i) (hc1 : ¬cond0_1 i) :
    sout0_B_0 c i a3 h3 a4 h4 a5 h5 a6 h6 a7 h7 a8 h8 a9 h9 hc0 hc1 x0 x1 x2 xs0 xs1 xs2 = newMax x0 x1 xs0 := by
  unfold sout0_B_0
  rw [View.read_writes_eq_canon _ _ _ (scover0_B_0 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem mid_norm (hc0 : ¬cond0_0 i) (hc1 : ¬cond0_1 i) :
    sout0_B_1 c i a3 h3 a4 h4 a5 h5 a6 h6 a7 h7 a8 h8 a9 h9 hc0 hc1 x0 x1 x2 xs0 xs1 xs2 = newNorm x0 x1 xs0 xs1 := by
  unfold sout0_B_1
  rw [View.read_writes_eq_canon _ _ _ (scover0_B_1 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem mid_acc (hc0 : ¬cond0_0 i) (hc1 : ¬cond0_1 i) :
    sout0_B_2 c i a3 h3 a4 h4 a5 h5 a6 h6 a7 h7 a8 h8 a9 h9 hc0 hc1 x0 x1 x2 xs0 xs1 xs2 = newAcc x0 x1 x2 xs0 xs2 := by
  unfold sout0_B_2
  rw [View.read_writes_eq_canon _ _ _ (scover0_B_2 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

/-! ## A head's last tile: the same update, and the output block is the quotient -/

theorem last_max (hc0 : ¬cond0_0 i) (hc1 : cond0_1 i) :
    sout0_C_0 c i a3 h3 a4 h4 a5 h5 a6 h6 a7 h7 a8 h8 a9 h9 hc0 hc1 x0 x1 x2 xs0 xs1 xs2 = newMax x0 x1 xs0 := by
  unfold sout0_C_0
  rw [View.read_writes_eq_canon _ _ _ (scover0_C_0 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem last_norm (hc0 : ¬cond0_0 i) (hc1 : cond0_1 i) :
    sout0_C_1 c i a3 h3 a4 h4 a5 h5 a6 h6 a7 h7 a8 h8 a9 h9 hc0 hc1 x0 x1 x2 xs0 xs1 xs2 = newNorm x0 x1 xs0 xs1 := by
  unfold sout0_C_1
  rw [View.read_writes_eq_canon _ _ _ (scover0_C_1 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem last_acc (hc0 : ¬cond0_0 i) (hc1 : cond0_1 i) :
    sout0_C_2 c i a3 h3 a4 h4 a5 h5 a6 h6 a7 h7 a8 h8 a9 h9 hc0 hc1 x0 x1 x2 xs0 xs1 xs2 = newAcc x0 x1 x2 xs0 xs2 := by
  unfold sout0_C_2
  rw [View.read_writes_eq_canon _ _ _ (scover0_C_2 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem last_out (hc0 : ¬cond0_0 i) (hc1 : cond0_1 i) :
    out0_C_3 c i a3 h3 a4 h4 a5 h5 a6 h6 a7 h7 a8 h8 a9 h9 hc0 hc1 x0 x1 x2 xs0 xs1 xs2 = k0_pay3 (newAcc x0 x1 x2 xs0 xs2) (newNorm x0 x1 xs0 xs1) := by
  unfold out0_C_3
  rw [View.read_writes_eq_canon _ _ _ (cover0_C_3 c i a3 h3 a4 h4 a5 h5 a6 h6 a7 h7 a8 h8 a9 h9 hc0 hc1 x0 x1 x2 xs0 xs1 xs2)]
  unfold kernelRun0_C
  dsimp only
  sl_unfold_words
  rw [View.canon_unit_zero hz4]
  simp only [View.readCov_unit_zero (S := S2048x128) _ hz2, View.readCov_unit_zero (S := S2048x1) _ hz2, View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

/-! ## A head's first tile: the same update from −∞, 0, 0 -/

theorem first_max (hc0 : cond0_0 i) (hc1 : ¬cond0_1 i) :
    sout0_A_0 c i a3 h3 a4 h4 a5 h5 a6 h6 a7 h7 a8 h8 a9 h9 hc0 hc1 x0 x1 x2 = newMax x0 x1 (k0_pay4 (F := F)) := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S2048x1) hz2]
  simp only [View.readCov_unit_zero (S := S2048x128) _ hz2, View.readCov_unit_zero (S := S2048x1) _ hz2, View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem first_norm (hc0 : cond0_0 i) (hc1 : ¬cond0_1 i) :
    sout0_A_1 c i a3 h3 a4 h4 a5 h5 a6 h6 a7 h7 a8 h8 a9 h9 hc0 hc1 x0 x1 x2 = newNorm x0 x1 (k0_pay4 (F := F)) (k0_pay5 (F := F)) := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S2048x1) hz2]
  simp only [View.readCov_unit_zero (S := S2048x128) _ hz2, View.readCov_unit_zero (S := S2048x1) _ hz2, View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

theorem first_acc (hc0 : cond0_0 i) (hc1 : ¬cond0_1 i) :
    sout0_A_2 c i a3 h3 a4 h4 a5 h5 a6 h6 a7 h7 a8 h8 a9 h9 hc0 hc1 x0 x1 x2 = newAcc x0 x1 x2 (k0_pay4 (F := F)) (k0_pay6 (F := F)) := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  sl_unfold_words
  rw [View.canon_cons_unit_zero (S := S2048x128) hz2]
  simp only [View.readCov_unit_zero (S := S2048x128) _ hz2, View.readCov_unit_zero (S := S2048x1) _ hz2, View.readAt_eq_ld, h3.read_unread, h4.read_unread, h5.read_unread, h7.read_unread, h8.read_unread, h9.read_unread,
    View.ld_unit_zero (S := S2048x1) hz2, View.ld_unit_zero (S := S2048x128) hz2, View.ld_unit_zero (S := S1x1x2048x128) hz4,
    View.ld_unit_zero (S := S1x1x512x128) hz4]

end Cert.KernelIdeal.Pieces

end
-- ==== Proof.Step.lean ====
/-
  The body's arithmetic read at an index, over the extended reals.

  For a query row r of the head's block of q, a key row c of the current block of k and an output column d:
  the score is the inner product over the 128 features; the tile's row maximum is a maximum, from −∞, over the
  512 key rows; the new running maximum is the larger of the old one and that; the old normaliser and weighted
  sum are rescaled by exp (old maximum − new maximum); the tile adds Σ_c exp (score − new maximum) to the
  normaliser and Σ_c exp (score − new maximum) · v[c, d] to the weighted sum; the result is their quotient.
-/
import proofs.«140605_j22265110462923_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Step

open Cert.KernelIdeal Cert.KernelIdeal.Gen

/-- The pattern of −∞. -/
theorem ofBits_neg_inf : Ideal.ofBits .f32 0xFF800000#32 = (⊥ : EReal) := by
  simp [Ideal.ofBits, Ideal.ieee]

/-- A block [1, 1, 2048, 128] viewed as a matrix reads (r, e) at (0, 0, r, e). -/
theorem qblock_apply (x : Vec Ideal S1x1x2048x128 .f32) (r : Fin 2048) (e : Fin 128) :
    shapeCast S2048x128 x shapeCasts_S1x1x2048x128_S2048x128 (ix2 r e) = x (ix4 0 0 r e) :=
  shapeCast_apply x _ _ _ (by
    rw [Shape.rowMajor_val_four, Shape.rowMajor_val_two]
    show ((0 * 1 + 0) * 2048 + r.val) * 128 + e.val = r.val * 128 + e.val
    omega)

/-- A block [1, 1, 512, 128] viewed as a matrix reads (c, e) at (0, 0, c, e). -/
theorem kvblock_apply (x : Vec Ideal S1x1x512x128 .f32) (cc : Fin 512) (e : Fin 128) :
    shapeCast S512x128 x shapeCasts_S1x1x512x128_S512x128 (ix2 cc e) = x (ix4 0 0 cc e) :=
  shapeCast_apply x _ _ _ (by
    rw [Shape.rowMajor_val_four, Shape.rowMajor_val_two]
    show ((0 * 1 + 0) * 512 + cc.val) * 128 + e.val = cc.val * 128 + e.val
    omega)

theorem qk_lhs0 (j : S2048x512.Idx) (q : dot_S2048x128_S128x512_S2048x512_1_0_0_1_n_n.contr.Idx) : (dot_S2048x128_S128x512_S2048x512_1_0_0_1_n_n.lhsIdx j q 0).val = (j 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem qk_rhs1 (j : S2048x512.Idx) (q : dot_S2048x128_S128x512_S2048x512_1_0_0_1_n_n.contr.Idx) : (dot_S2048x128_S128x512_S2048x512_1_0_0_1_n_n.rhsIdx j q 1).val = (j 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The score of query row `r` against key row `c` of the tile: the inner product over the features. -/
theorem score_apply (x0 : Vec Ideal S1x1x2048x128 .f32) (x1 : Vec Ideal S1x1x512x128 .f32) (r : Fin 2048) (cc : Fin 512) :
    k0_pay7 x0 x1 (ix2 r cc) = ∑ e : Fin 128, x0 (ix4 0 0 r e) * x1 (ix4 0 0 cc e) := by
  unfold k0_pay7
  simp only [matmul]
  rw [Ideal.matmul_constant_zero_apply, ← Equiv.sum_comp (contrEquiv1 dot_S2048x128_S128x512_S2048x512_1_0_0_1_n_n 128 rfl rfl).symm]
  refine Finset.sum_congr rfl fun e _ => ?_
  have hk := contrEquiv1_symm_val dot_S2048x128_S128x512_S2048x512_1_0_0_1_n_n 128 rfl rfl e
  have el : dot_S2048x128_S128x512_S2048x512_1_0_0_1_n_n.lhsIdx (ix2 r cc) ((contrEquiv1 dot_S2048x128_S128x512_S2048x512_1_0_0_1_n_n 128 rfl rfl).symm e) = ix2 r e := funext fun a => Fin.ext (by
    match a with
    | ⟨0, _⟩ => exact qk_lhs0 _ _
    | ⟨1, _⟩ => exact (dot_S2048x128_S128x512_S2048x512_1_0_0_1_n_n.lhsIdx_val_of_single rfl _ _).trans hk)
  have er : dot_S2048x128_S128x512_S2048x512_1_0_0_1_n_n.rhsIdx (ix2 r cc) ((contrEquiv1 dot_S2048x128_S128x512_S2048x512_1_0_0_1_n_n 128 rfl rfl).symm e) = ix2 e cc := funext fun a => Fin.ext (by
    match a with
    | ⟨0, _⟩ => exact (dot_S2048x128_S128x512_S2048x512_1_0_0_1_n_n.rhsIdx_val_of_single rfl _ _).trans hk
    | ⟨1, _⟩ => exact qk_rhs1 _ _)
  rw [el, er, qblock_apply, transpose_ix2_apply, kvblock_apply]

/-- A column [2048, 1] spread over 512 columns reads (r, c) at (r, 0). -/
theorem spread512_apply (v : FVec Ideal S2048x1 .f32) (r : Fin 2048) (cc : Fin 512) :
    broadcastTo S2048x512 v broadcasts_S2048x1_S2048x512 (ix2 r cc) = v (ix2 r 0) :=
  broadcastTo_apply v _ _ _ fun a => match a with
    | ⟨0, _⟩ => by show r.val = if (2048 : Nat) = 1 then 0 else r.val; rw [if_neg (by decide)]
    | ⟨1, _⟩ => by show (0 : Nat) = if (1 : Nat) = 1 then 0 else cc.val; rw [if_pos rfl]

/-- A column [2048, 1] spread over 128 columns reads (r, d) at (r, 0). -/
theorem spread128_apply (v : FVec Ideal S2048x1 .f32) (r : Fin 2048) (d : Fin 128) :
    broadcastTo S2048x128 v broadcasts_S2048x1_S2048x128 (ix2 r d) = v (ix2 r 0) :=
  broadcastTo_apply v _ _ _ fun a => match a with
    | ⟨0, _⟩ => by show r.val = if (2048 : Nat) = 1 then 0 else r.val; rw [if_neg (by decide)]
    | ⟨1, _⟩ => by show (0 : Nat) = if (1 : Nat) = 1 then 0 else d.val; rw [if_pos rfl]

/-- A vector [2048] viewed as a column reads (r, 0) at r. -/
theorem column_apply (v : FVec Ideal S2048 .f32) (r : Fin 2048) :
    shapeCast S2048x1 v shapeCasts_S2048_S2048x1 (ix2 r 0) = v (ix1 r) :=
  shapeCast_apply v _ _ _ (by
    rw [Shape.rowMajor_val_one, Shape.rowMajor_val_two]
    show r.val = r.val * 1 + 0
    omega)

/-- A row's maximum over the 512 columns, taken from −∞. -/
theorem rowmax_apply (src : FVec Ideal S2048x512 .f32) (hφ : FKind.Formats .f32)
    (hacc : (0xFF800000#32 : BitVec 32) = FKind.maximumf.neutral .f32 hφ) (r : Fin 2048) :
    multiReduction .maximumf [1] S2048 src 0xFF800000#32 reduces_S2048x512_S2048 hφ hacc (ix1 r)
      = (Finset.univ : Finset (Fin 512)).fold max (⊥ : EReal) (fun cc => src (ix2 r cc)) := by
  refine (Ideal.multiReduction_maximumf_single src 0xFF800000#32 reduces_S2048x512_S2048 hφ hacc (ix1 r)).trans ?_
  show (Finset.univ : Finset (Fin 512)).fold max (Ideal.ofBits .f32 0xFF800000#32) _ = _
  rw [ofBits_neg_inf]
  refine congrArg (fun f => (Finset.univ : Finset (Fin 512)).fold max (⊥ : EReal) f) (funext fun cc => ?_)
  exact congrArg src (funext fun a => Fin.ext (by match a with | ⟨0, _⟩ => rfl | ⟨1, _⟩ => rfl))

/-- A row's sum over the 512 columns. -/
theorem rowsum_apply (src : FVec Ideal S2048x512 .f32) (hφ : FKind.Formats .f32)
    (hacc : (0x00000000#32 : BitVec 32) = FKind.add.neutral .f32 hφ) (r : Fin 2048) :
    multiReduction .add [1] S2048 src 0x00000000#32 reduces_S2048x512_S2048 hφ hacc (ix1 r)
      = ∑ cc : Fin 512, src (ix2 r cc) := by
  refine (Ideal.multiReduction_add_single src 0x00000000#32 reduces_S2048x512_S2048 hφ hacc (ix1 r)).trans ?_
  refine Finset.sum_congr rfl fun cc _ => ?_
  exact congrArg src (funext fun a => Fin.ext (by match a with | ⟨0, _⟩ => rfl | ⟨1, _⟩ => rfl))

/-- The new running maximum at row `r`: the larger of the old one and the maximum, from −∞, of the row's scores. -/
theorem max_apply (x0 : Vec Ideal S1x1x2048x128 .f32) (x1 : Vec Ideal S1x1x512x128 .f32) (mp : Vec Ideal S2048x1 .f32) (r : Fin 2048) :
    k0_pay8 x0 x1 mp (ix2 r 0)
      = max (mp (ix2 r 0)) ((Finset.univ : Finset (Fin 512)).fold max (⊥ : EReal) (fun cc => k0_pay7 x0 x1 (ix2 r cc))) := by
  unfold k0_pay8
  rw [maximumf_apply]
  refine congrArg (max (mp (ix2 r 0))) ?_
  refine (column_apply _ r).trans ?_
  exact rowmax_apply _ _ _ r

/-- The rescaling factor at row `r`: exp (old maximum − new maximum). -/
theorem scale_apply (x0 : Vec Ideal S1x1x2048x128 .f32) (x1 : Vec Ideal S1x1x512x128 .f32) (mp : Vec Ideal S2048x1 .f32) (r : Fin 2048) :
    k0_pay9 x0 x1 mp mp (ix2 r 0) = Ideal.exp (mp (ix2 r 0) - k0_pay8 x0 x1 mp (ix2 r 0)) := by
  unfold k0_pay9
  rfl

/-- The weight of key row `c` at query row `r`: exp (score − new maximum). -/
theorem weight_apply (x0 : Vec Ideal S1x1x2048x128 .f32) (x1 : Vec Ideal S1x1x512x128 .f32) (mp : Vec Ideal S2048x1 .f32)
    (r : Fin 2048) (cc : Fin 512) :
    k0_pay10 x0 x1 mp (ix2 r cc) = Ideal.exp (k0_pay7 x0 x1 (ix2 r cc) - k0_pay8 x0 x1 mp (ix2 r 0)) := by
  unfold k0_pay10
  show Ideal.exp (k0_pay7 x0 x1 (ix2 r cc) - broadcastTo S2048x512 (k0_pay8 x0 x1 mp) broadcasts_S2048x1_S2048x512 (ix2 r cc)) = _
  rw [spread512_apply]

/-- The new normaliser at row `r`: the old one rescaled, plus the row's weights. -/
theorem norm_apply (x0 : Vec Ideal S1x1x2048x128 .f32) (x1 : Vec Ideal S1x1x512x128 .f32) (mp lp : Vec Ideal S2048x1 .f32) (r : Fin 2048) :
    k0_pay11 x0 x1 mp mp lp (ix2 r 0)
      = k0_pay9 x0 x1 mp mp (ix2 r 0) * lp (ix2 r 0) + ∑ cc : Fin 512, k0_pay10 x0 x1 mp (ix2 r cc) := by
  unfold k0_pay11
  rw [shapeCast_self]
  rw [addf_apply, mulf_apply]
  refine congrArg (k0_pay9 x0 x1 mp mp (ix2 r 0) * lp (ix2 r 0) + ·) ?_
  refine (column_apply _ r).trans ?_
  exact rowsum_apply _ _ _ r

/-- The block of v as the second matmul takes it reads (c, d) at (0, 0, c, d): the change of format is the identity. -/
theorem vblock_apply (x2 : Vec Ideal S1x1x512x128 .f32) (cc : Fin 512) (d : Fin 128) :
    k0_pay12 x2 (ix2 cc d) = x2 (ix4 0 0 cc d) := by
  unfold k0_pay12
  rw [truncf_apply, kvblock_apply]

theorem pv_lhs0 (j : S2048x128.Idx) (q : dot_S2048x512_S512x128_S2048x128_1_0_0_1_n_n.contr.Idx) : (dot_S2048x512_S512x128_S2048x128_1_0_0_1_n_n.lhsIdx j q 0).val = (j 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem pv_rhs1 (j : S2048x128.Idx) (q : dot_S2048x512_S512x128_S2048x128_1_0_0_1_n_n.contr.Idx) : (dot_S2048x512_S512x128_S2048x128_1_0_0_1_n_n.rhsIdx j q 1).val = (j 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The new weighted sum at (r, d): the old one rescaled, plus Σ_c weight (r, c) · v (c, d). -/
theorem acc_apply (al : FVec Ideal S2048x1 .f32) (p : FVec Ideal S2048x512 .f32) (vb : FVec Ideal S512x128 .bf16)
    (ap : Vec Ideal S2048x128 .f32) (r : Fin 2048) (d : Fin 128) :
    k0_pay1 al p vb ap (ix2 r d) = al (ix2 r 0) * ap (ix2 r d) + ∑ cc : Fin 512, p (ix2 r cc) * vb (ix2 cc d) := by
  unfold k0_pay1
  rw [shapeCast_self]
  rw [addf_apply, mulf_apply, spread128_apply]
  refine congrArg (al (ix2 r 0) * ap (ix2 r d) + ·) ?_
  simp only [matmul]
  rw [Ideal.matmul_constant_zero_apply, ← Equiv.sum_comp (contrEquiv1 dot_S2048x512_S512x128_S2048x128_1_0_0_1_n_n 512 rfl rfl).symm]
  refine Finset.sum_congr rfl fun cc _ => ?_
  have hk := contrEquiv1_symm_val dot_S2048x512_S512x128_S2048x128_1_0_0_1_n_n 512 rfl rfl cc
  have el : dot_S2048x512_S512x128_S2048x128_1_0_0_1_n_n.lhsIdx (ix2 r d) ((contrEquiv1 dot_S2048x512_S512x128_S2048x128_1_0_0_1_n_n 512 rfl rfl).symm cc) = ix2 r cc := funext fun a => Fin.ext (by
    match a with
    | ⟨0, _⟩ => exact pv_lhs0 _ _
    | ⟨1, _⟩ => exact (dot_S2048x512_S512x128_S2048x128_1_0_0_1_n_n.lhsIdx_val_of_single rfl _ _).trans hk)
  have er : dot_S2048x512_S512x128_S2048x128_1_0_0_1_n_n.rhsIdx (ix2 r d) ((contrEquiv1 dot_S2048x512_S512x128_S2048x128_1_0_0_1_n_n 512 rfl rfl).symm cc) = ix2 cc d := funext fun a => Fin.ext (by
    match a with
    | ⟨0, _⟩ => exact (dot_S2048x512_S512x128_S2048x128_1_0_0_1_n_n.rhsIdx_val_of_single rfl _ _).trans hk
    | ⟨1, _⟩ => exact pv_rhs1 _ _)
  rw [el, er, truncf_apply]

/-- The output block at (0, 0, r, d): the weighted sum at (r, d) divided by the normaliser at row `r`. -/
theorem out_apply (acc : Vec Ideal S2048x128 .f32) (l : Vec Ideal S2048x1 .f32) (r : Fin 2048) (d : Fin 128) :
    k0_pay3 acc l (ix4 0 0 r d) = Ideal.div (acc (ix2 r d)) (l (ix2 r 0)) := by
  unfold k0_pay3
  refine (shapeCast_apply _ shapeCasts_S2048x128_S1x1x2048x128 (ix4 0 0 r d) (ix2 r d) (by
    rw [Shape.rowMajor_val_four, Shape.rowMajor_val_two]
    show r.val * 128 + d.val = ((0 * 1 + 0) * 2048 + r.val) * 128 + d.val
    omega)).trans ?_
  rw [divf_apply, spread128_apply]

/-- Storing a column into the maximum's buffer stores it as it is. -/
theorem keep_apply (v : FVec Ideal S2048x1 .f32) : k0_pay2 v = v := by
  unfold k0_pay2
  exact shapeCast_self _ _

/-- A head's first tile starts the running maximum at −∞ … -/
theorem init_max_apply (j : S2048x1.Idx) : k0_pay4 (F := Ideal) j = (⊥ : EReal) := by
  unfold k0_pay4
  rw [shapeCast_self]
  exact ofBits_neg_inf

/-- … the normaliser at 0 … -/
theorem init_norm_apply (j : S2048x1.Idx) : k0_pay5 (F := Ideal) j = (0 : EReal) := by
  unfold k0_pay5
  rw [shapeCast_self]
  exact Ideal.ofBits_zero_f32

/-- … and the weighted sum at 0. -/
theorem init_acc_apply (j : S2048x128.Idx) : k0_pay6 (F := Ideal) j = (0 : EReal) := by
  unfold k0_pay6
  rw [shapeCast_self]
  exact Ideal.ofBits_zero_f32

end Cert.KernelIdeal.Step

end
-- ==== Proof.LibOnlineSoftmax.lean ====
/-
  The online softmax, free of any program.

  A row of scores arrives in tiles S 0, S 1, …, each a finite family of reals, with values V j c d beside them. The
  running state is a maximum m, a normaliser l and weighted sums a d. One tile updates
      m' = max m (max of the tile),  l' = exp (m − m') · l + Σ_c exp (s c − m'),
      a' d = exp (m − m') · a d + Σ_c exp (s c − m') · v c d,
  starting from m = −∞, l = 0, a = 0, where exp (−∞) = 0 makes the first rescaling vanish. After n ≥ 1 tiles the state
  is, for the real number M = m,  l = Σ_{j<n} Σ_c exp (S j c − M)  and  a d = Σ_{j<n} Σ_c exp (S j c − M) · V j c d,
  because exp (M − M') · exp (x − M) = exp (x − M'). The quotient a d / l does not depend on M.
-/
import Idealize.ShloMosaic.PureOps.Ideal

noncomputable section

namespace Cert.OnlineSoftmax

open Idealize.ShloMosaic Finset

variable {ι δ κ : Type*} [Fintype ι] [Fintype κ]

/-- The normaliser over the first `n` tiles at shift `M`. -/
def Z (S : ℕ → ι → ℝ) (n : ℕ) (M : ℝ) : ℝ := ∑ j ∈ range n, ∑ c, Real.exp (S j c - M)

/-- The weighted sum over the first `n` tiles at shift `M`. -/
def W (S V : ℕ → ι → ℝ) (n : ℕ) (M : ℝ) : ℝ := ∑ j ∈ range n, ∑ c, Real.exp (S j c - M) * V j c

/-- The state of a row after `n` tiles: the maximum is a real number `M`, and the normaliser and the weighted sums
    are the partial sums at shift `M`. -/
def Inv (S : ℕ → ι → ℝ) (V : ℕ → ι → δ → ℝ) (n : ℕ) (m l : EReal) (a : δ → EReal) : Prop :=
  ∃ M : ℝ, m = (M : EReal) ∧ l = ((Z S n M : ℝ) : EReal) ∧ ∀ d, a d = ((W S (fun j c => V j c d) n M : ℝ) : EReal)

/-- The inclusion of the reals in the extended reals commutes with finite sums. -/
private theorem coe_sum {α : Type*} (t : Finset α) (f : α → ℝ) :
    ((∑ i ∈ t, f i : ℝ) : EReal) = ∑ i ∈ t, ((f i : ℝ) : EReal) := by
  classical
  induction t using Finset.induction_on with
  | empty => simp
  | insert a t ha ih => rw [sum_insert ha, sum_insert ha, EReal.coe_add, ih]

/-- The inclusion of the reals in the extended reals commutes with the maximum of two numbers. -/
private theorem coe_max (a b : ℝ) : ((max a b : ℝ) : EReal) = max (a : EReal) (b : EReal) :=
  EReal.coe_strictMono.monotone.map_max

/-- A sum of exponentials of real scores less a real shift is the real sum. -/
private theorem sum_exp_coe {α : Type*} (t : Finset α) (x : α → ℝ) (M : ℝ) :
    ∑ c ∈ t, Ideal.exp (((x c : ℝ) : EReal) - (M : EReal)) = ((∑ c ∈ t, Real.exp (x c - M) : ℝ) : EReal) := by
  rw [coe_sum]
  refine sum_congr rfl fun c _ => ?_
  rw [← EReal.coe_sub, Ideal.exp_coe]

/-- The same with a real weight beside each exponential. -/
private theorem sum_exp_mul_coe {α : Type*} (t : Finset α) (x y : α → ℝ) (M : ℝ) :
    ∑ c ∈ t, Ideal.exp (((x c : ℝ) : EReal) - (M : EReal)) * ((y c : ℝ) : EReal)
      = ((∑ c ∈ t, Real.exp (x c - M) * y c : ℝ) : EReal) := by
  rw [coe_sum]
  refine sum_congr rfl fun c _ => ?_
  rw [← EReal.coe_sub, Ideal.exp_coe, EReal.coe_mul]

/-- Shifting every score by `M` multiplies a sum of exponentials by `exp (−M)`. -/
private theorem shift_sum {α : Type*} (t : Finset α) (x : α → ℝ) (M : ℝ) :
    ∑ i ∈ t, Real.exp (x i - M) = Real.exp (-M) * ∑ i ∈ t, Real.exp (x i) := by
  rw [mul_sum]
  refine sum_congr rfl fun i _ => ?_
  rw [← Real.exp_add]; congr 1; ring

/-- The same for a weighted sum. -/
private theorem shift_wsum {α : Type*} (t : Finset α) (x y : α → ℝ) (M : ℝ) :
    ∑ i ∈ t, Real.exp (x i - M) * y i = Real.exp (-M) * ∑ i ∈ t, Real.exp (x i) * y i := by
  rw [mul_sum]
  refine sum_congr rfl fun i _ => ?_
  rw [← mul_assoc, ← Real.exp_add]; congr 2; ring

/-- Moving the shift from `M` to `M'` multiplies the normaliser by `exp (M − M')`. -/
private theorem Z_shift (S : ℕ → ι → ℝ) (n : ℕ) (M M' : ℝ) : Real.exp (M - M') * Z S n M = Z S n M' := by
  unfold Z
  rw [mul_sum]
  refine sum_congr rfl fun j _ => ?_
  rw [mul_sum]
  refine sum_congr rfl fun c _ => ?_
  rw [← Real.exp_add]; congr 1; ring

/-- And the weighted sum likewise. -/
private theorem W_shift (S V : ℕ → ι → ℝ) (n : ℕ) (M M' : ℝ) : Real.exp (M - M') * W S V n M = W S V n M' := by
  unfold W
  rw [mul_sum]
  refine sum_congr rfl fun j _ => ?_
  rw [mul_sum]
  refine sum_congr rfl fun c _ => ?_
  rw [← mul_assoc, ← Real.exp_add]; congr 2; ring

/-- The normaliser at shift `M` is `exp (−M)` times the unshifted one. -/
private theorem Z_eq (S : ℕ → ι → ℝ) (n : ℕ) (M : ℝ) :
    Z S n M = Real.exp (-M) * ∑ j ∈ range n, ∑ c, Real.exp (S j c) := by
  unfold Z
  simp only [shift_sum, ← mul_sum]

/-- The weighted sum at shift `M` is `exp (−M)` times the unshifted one. -/
private theorem W_eq (S V : ℕ → ι → ℝ) (n : ℕ) (M : ℝ) :
    W S V n M = Real.exp (-M) * ∑ j ∈ range n, ∑ c, Real.exp (S j c) * V j c := by
  unfold W
  simp only [shift_wsum, ← mul_sum]

/-- A maximum, taken from −∞, of finitely many (at least one) real numbers is a real number. -/
theorem fold_max_coe [Nonempty κ] (s : κ → ℝ) :
    ∃ M : ℝ, (univ : Finset κ).fold max (⊥ : EReal) (fun k => ((s k : ℝ) : EReal)) = (M : EReal) := by
  classical
  have key : ∀ t : Finset κ, t.Nonempty →
      ∃ M : ℝ, t.fold max (⊥ : EReal) (fun k => ((s k : ℝ) : EReal)) = (M : EReal) := by
    intro t
    induction t using Finset.induction_on with
    | empty => intro h; exact absurd h (by simp)
    | insert a t ha ih =>
      intro _
      rw [fold_insert ha]
      rcases t.eq_empty_or_nonempty with rfl | hne
      · exact ⟨s a, by simp⟩
      · obtain ⟨M, hM⟩ := ih hne
        exact ⟨max (s a) M, by rw [hM, coe_max]⟩
  exact key univ univ_nonempty

/-- The first tile, from the state (−∞, 0, 0). -/
theorem inv_first [Nonempty ι] (S : ℕ → ι → ℝ) (V : ℕ → ι → δ → ℝ) (s : ι → EReal) (hs : ∀ c, s c = ((S 0 c : ℝ) : EReal))
    (v : ι → δ → EReal) (hv : ∀ c d, v c d = ((V 0 c d : ℝ) : EReal)) :
    Inv S V 1 (max (⊥ : EReal) ((univ : Finset ι).fold max (⊥ : EReal) s))
      (Ideal.exp ((⊥ : EReal) - max (⊥ : EReal) ((univ : Finset ι).fold max (⊥ : EReal) s)) * 0
        + ∑ c, Ideal.exp (s c - max (⊥ : EReal) ((univ : Finset ι).fold max (⊥ : EReal) s)))
      (fun d => Ideal.exp ((⊥ : EReal) - max (⊥ : EReal) ((univ : Finset ι).fold max (⊥ : EReal) s)) * 0
        + ∑ c, Ideal.exp (s c - max (⊥ : EReal) ((univ : Finset ι).fold max (⊥ : EReal) s)) * v c d) := by
  obtain ⟨T, hT⟩ := fold_max_coe (S 0)
  have hfold : (univ : Finset ι).fold max (⊥ : EReal) s = (T : EReal) := by rw [funext hs]; exact hT
  rw [hfold, max_bot_left]
  unfold Inv
  refine ⟨T, rfl, ?_, fun d => ?_⟩
  · rw [mul_zero, zero_add]
    simp only [hs]
    rw [sum_exp_coe]
    simp only [Z, sum_range_one]
  · beta_reduce
    rw [mul_zero, zero_add]
    simp only [hs, hv]
    rw [sum_exp_mul_coe]
    simp only [W, sum_range_one]

/-- A later tile. -/
theorem inv_step [Nonempty ι] (S : ℕ → ι → ℝ) (V : ℕ → ι → δ → ℝ) {n : ℕ} (hn : 0 < n) {m l : EReal} {a : δ → EReal}
    (h : Inv S V n m l a) (s : ι → EReal) (hs : ∀ c, s c = ((S n c : ℝ) : EReal))
    (v : ι → δ → EReal) (hv : ∀ c d, v c d = ((V n c d : ℝ) : EReal)) :
    Inv S V (n + 1) (max m ((univ : Finset ι).fold max (⊥ : EReal) s))
      (Ideal.exp (m - max m ((univ : Finset ι).fold max (⊥ : EReal) s)) * l
        + ∑ c, Ideal.exp (s c - max m ((univ : Finset ι).fold max (⊥ : EReal) s)))
      (fun d => Ideal.exp (m - max m ((univ : Finset ι).fold max (⊥ : EReal) s)) * a d
        + ∑ c, Ideal.exp (s c - max m ((univ : Finset ι).fold max (⊥ : EReal) s)) * v c d) := by
  obtain ⟨M, rfl, rfl, ha⟩ := h
  obtain ⟨T, hT⟩ := fold_max_coe (S n)
  have hfold : (univ : Finset ι).fold max (⊥ : EReal) s = (T : EReal) := by rw [funext hs]; exact hT
  rw [hfold, ← coe_max]
  unfold Inv
  refine ⟨max M T, rfl, ?_, fun d => ?_⟩
  · simp only [hs]
    rw [← EReal.coe_sub, Ideal.exp_coe, ← EReal.coe_mul, sum_exp_coe, ← EReal.coe_add, Z_shift]
    simp only [Z, sum_range_succ]
  · beta_reduce
    rw [ha d]
    simp only [hs, hv]
    rw [← EReal.coe_sub, Ideal.exp_coe, ← EReal.coe_mul, sum_exp_mul_coe, ← EReal.coe_add, W_shift]
    simp only [W, sum_range_succ]

/-- The final division: the shift cancels. -/
theorem inv_final [Nonempty ι] (S : ℕ → ι → ℝ) (V : ℕ → ι → δ → ℝ) {n : ℕ} (hn : 0 < n) {m l : EReal} {a : δ → EReal}
    (h : Inv S V n m l a) (d : δ) :
    Ideal.div (a d) l
      = (((∑ j ∈ range n, ∑ c, Real.exp (S j c) * V j c d) / (∑ j ∈ range n, ∑ c, Real.exp (S j c)) : ℝ) : EReal) := by
  obtain ⟨M, rfl, rfl, ha⟩ := h
  have hZpos : 0 < Z S n M := by
    unfold Z
    refine sum_pos (fun j _ => sum_pos (fun c _ => Real.exp_pos _) univ_nonempty) ?_
    exact ⟨0, mem_range.mpr hn⟩
  rw [ha d, Ideal.div_coe hZpos.ne', ← EReal.coe_mul, W_eq, Z_eq, mul_one_div,
    mul_div_mul_left _ _ (Real.exp_ne_zero _)]

/-- A family over the 2048 columns continued by zero to all natural numbers. -/
private def ext0 (f : Fin 2048 → ℝ) (i : ℕ) : ℝ := if h : i < 2048 then f ⟨i, h⟩ else 0

/-- Four tiles of 512 make up the 2048 columns. -/
theorem sum_tiles (f : Fin 2048 → ℝ) :
    ∑ j ∈ range 4, ∑ c : Fin 512, f ⟨(512 * j + c.val) % 2048, Nat.mod_lt _ (by norm_num)⟩ = ∑ k : Fin 2048, f k := by
  have hR : ∑ k : Fin 2048, f k = ∑ i ∈ range 2048, ext0 f i := by
    rw [← Fin.sum_univ_eq_sum_range]
    refine sum_congr rfl fun k _ => ?_
    simp only [ext0, dif_pos k.isLt, Fin.eta]
  have hL : ∀ j ∈ range 4, ∑ c : Fin 512, f ⟨(512 * j + c.val) % 2048, Nat.mod_lt _ (by norm_num)⟩
      = ∑ c ∈ range 512, ext0 f (512 * j + c) := by
    intro j hj
    rw [← Fin.sum_univ_eq_sum_range (fun c => ext0 f (512 * j + c))]
    refine sum_congr rfl fun c _ => ?_
    have hj' : j < 4 := mem_range.mp hj
    have hlt : 512 * j + c.val < 2048 := by have := c.isLt; omega
    simp only [ext0, dif_pos hlt, Nat.mod_eq_of_lt hlt]
  rw [hR, sum_congr rfl hL, show (2048 : ℕ) = 512 + 512 + 512 + 512 from rfl, sum_range_add, sum_range_add,
    sum_range_add]
  simp [sum_range_succ]

/-- The softmax taken all at once, with any real shift `M` subtracted before exponentiating: each weight divided by
    the normaliser (which a sum from 0 starts), then the weighted sum. -/
theorem softmax_shift [Nonempty κ] (s v : κ → ℝ) (M : ℝ) :
    ∑ k, Ideal.div (Ideal.exp (((s k : ℝ) : EReal) - (M : EReal))) (0 + ∑ k', Ideal.exp (((s k' : ℝ) : EReal) - (M : EReal)))
        * ((v k : ℝ) : EReal)
      = (((∑ k, Real.exp (s k) * v k) / (∑ k, Real.exp (s k)) : ℝ) : EReal) := by
  have hpos : 0 < ∑ k', Real.exp (s k' - M) := sum_pos (fun _ _ => Real.exp_pos _) univ_nonempty
  have hterm : ∀ k, Ideal.div (Ideal.exp (((s k : ℝ) : EReal) - (M : EReal)))
        (0 + ∑ k', Ideal.exp (((s k' : ℝ) : EReal) - (M : EReal))) * ((v k : ℝ) : EReal)
      = ((Real.exp (s k - M) * v k * (1 / ∑ k', Real.exp (s k' - M)) : ℝ) : EReal) := by
    intro k
    rw [zero_add, sum_exp_coe, Ideal.div_coe hpos.ne', ← EReal.coe_sub, Ideal.exp_coe, ← EReal.coe_mul, ← EReal.coe_mul,
      mul_right_comm]
  simp only [hterm]
  rw [← coe_sum, ← sum_mul, shift_wsum, shift_sum, mul_one_div, mul_div_mul_left _ _ (Real.exp_ne_zero _)]

end Cert.OnlineSoftmax

end
-- ==== Proof.RowStep.lean ====
/-
  One row of one tile, as an update of the online softmax.

  At query row r the tile's scores s c (c over the tile's 512 key rows) and the block of v are, by hypothesis, real
  numbers S n c and V n c d. Then the three stored payloads at row r are exactly the update
      m' = max m (max_c s c),  l' = exp (m − m') · l + Σ_c exp (s c − m'),  a' d = exp (m − m') · a d + Σ_c exp (s c − m') · v c d
  of the previous contents m, l, a at that row, so the state after n tiles becomes the state after n + 1; from the
  first tile's constants −∞, 0, 0 it becomes the state after one tile; and the output payload is the quotient, which
  no longer depends on the maximum.
-/
import proofs.«140605_j22265110462923_2_alg».proof.Proof.Pieces
import proofs.«140605_j22265110462923_2_alg».proof.Proof.Step
import proofs.«140605_j22265110462923_2_alg».proof.Proof.LibOnlineSoftmax

noncomputable section

open Idealize.ShloMosaic Idealize.ShloMosaic.TcCoe Idealize.ShloMosaic.ValueIdx

namespace Cert.KernelIdeal.RowStep

open Cert.KernelIdeal Cert.KernelIdeal.Gen Cert.KernelIdeal.Pieces Cert.KernelIdeal.Step Cert.OnlineSoftmax

variable (x0 : Vec Ideal S1x1x2048x128 .f32) (x1 x2 : Vec Ideal S1x1x512x128 .f32)
  (S : ℕ → Fin 512 → ℝ) (V : ℕ → Fin 512 → Fin 128 → ℝ) (r : Fin 2048)

/-- The three payloads at row `r`, written as the update of the previous contents `mp`, `lp`, `ap` at that row. -/
theorem update_eq (mp lp : Vec Ideal S2048x1 .f32) (ap : Vec Ideal S2048x128 .f32) :
    newMax x0 x1 mp (ix2 r 0)
        = max (mp (ix2 r 0)) ((Finset.univ : Finset (Fin 512)).fold max (⊥ : EReal) (fun cc => k0_pay7 x0 x1 (ix2 r cc)))
    ∧ newNorm x0 x1 mp lp (ix2 r 0)
        = Ideal.exp (mp (ix2 r 0) - max (mp (ix2 r 0)) ((Finset.univ : Finset (Fin 512)).fold max (⊥ : EReal) (fun cc => k0_pay7 x0 x1 (ix2 r cc)))) * lp (ix2 r 0)
          + ∑ cc : Fin 512, Ideal.exp (k0_pay7 x0 x1 (ix2 r cc) - max (mp (ix2 r 0)) ((Finset.univ : Finset (Fin 512)).fold max (⊥ : EReal) (fun cc => k0_pay7 x0 x1 (ix2 r cc))))
    ∧ (fun d : Fin 128 => newAcc x0 x1 x2 mp ap (ix2 r d))
        = fun d => Ideal.exp (mp (ix2 r 0) - max (mp (ix2 r 0)) ((Finset.univ : Finset (Fin 512)).fold max (⊥ : EReal) (fun cc => k0_pay7 x0 x1 (ix2 r cc)))) * ap (ix2 r d)
          + ∑ cc : Fin 512, Ideal.exp (k0_pay7 x0 x1 (ix2 r cc) - max (mp (ix2 r 0)) ((Finset.univ : Finset (Fin 512)).fold max (⊥ : EReal) (fun cc => k0_pay7 x0 x1 (ix2 r cc)))) * x2 (ix4 0 0 cc d) := by
  refine ⟨?_, ?_, ?_⟩
  · show k0_pay2 (k0_pay8 x0 x1 mp) (ix2 r 0) = _
    rw [keep_apply, max_apply]
  · show k0_pay11 x0 x1 mp mp lp (ix2 r 0) = _
    rw [norm_apply, scale_apply, max_apply]
    refine congrArg (_ + ·) (Finset.sum_congr rfl fun cc _ => ?_)
    rw [weight_apply, max_apply]
  · funext d
    show k0_pay1 (k0_pay9 x0 x1 mp mp) (k0_pay10 x0 x1 mp) (k0_pay12 x2) ap (ix2 r d) = _
    rw [acc_apply, scale_apply, max_apply]
    refine congrArg (_ + ·) (Finset.sum_congr rfl fun cc _ => ?_)
    rw [weight_apply, max_apply, vblock_apply]

/-- A later tile at row `r`: from the state after `n ≥ 1` tiles to the state after `n + 1`. -/
theorem row_step {n : ℕ} (hn : 0 < n) (mp lp : Vec Ideal S2048x1 .f32) (ap : Vec Ideal S2048x128 .f32)
    (hinv : Inv S V n (mp (ix2 r 0)) (lp (ix2 r 0)) (fun d => ap (ix2 r d)))
    (hs : ∀ cc, k0_pay7 x0 x1 (ix2 r cc) = ((S n cc : ℝ) : EReal))
    (hv : ∀ cc d, x2 (ix4 0 0 cc d) = ((V n cc d : ℝ) : EReal)) :
    Inv S V (n + 1) (newMax x0 x1 mp (ix2 r 0)) (newNorm x0 x1 mp lp (ix2 r 0)) (fun d => newAcc x0 x1 x2 mp ap (ix2 r d)) := by
  obtain ⟨e1, e2, e3⟩ := update_eq x0 x1 x2 r mp lp ap
  rw [e1, e2, e3]
  exact inv_step S V hn hinv (fun cc => k0_pay7 x0 x1 (ix2 r cc)) hs (fun cc d => x2 (ix4 0 0 cc d)) hv

/-- A head's first tile at row `r`: from −∞, 0, 0 to the state after one tile. -/
theorem row_first
    (hs : ∀ cc, k0_pay7 x0 x1 (ix2 r cc) = ((S 0 cc : ℝ) : EReal))
    (hv : ∀ cc d, x2 (ix4 0 0 cc d) = ((V 0 cc d : ℝ) : EReal)) :
    Inv S V 1 (newMax x0 x1 (k0_pay4 (F := Ideal)) (ix2 r 0)) (newNorm x0 x1 (k0_pay4 (F := Ideal)) (k0_pay5 (F := Ideal)) (ix2 r 0))
      (fun d => newAcc x0 x1 x2 (k0_pay4 (F := Ideal)) (k0_pay6 (F := Ideal)) (ix2 r d)) := by
  obtain ⟨e1, e2, e3⟩ := update_eq x0 x1 x2 r (k0_pay4 (F := Ideal)) (k0_pay5 (F := Ideal)) (k0_pay6 (F := Ideal))
  rw [e1, e2, e3]
  simp only [init_max_apply, init_norm_apply, init_acc_apply]
  exact inv_first S V (fun cc => k0_pay7 x0 x1 (ix2 r cc)) hs (fun cc d => x2 (ix4 0 0 cc d)) hv

/-- The output payload at (r, d) once the state is that after `n ≥ 1` tiles: the quotient of the sums without any shift. -/
theorem row_out {n : ℕ} (hn : 0 < n) (l' : Vec Ideal S2048x1 .f32) (a' : Vec Ideal S2048x128 .f32) (m' : EReal)
    (hinv : Inv S V n m' (l' (ix2 r 0)) (fun d => a' (ix2 r d))) (d : Fin 128) :
    k0_pay3 a' l' (ix4 0 0 r d)
      = (((∑ j ∈ Finset.range n, ∑ cc, Real.exp (S j cc) * V j cc d) / (∑ j ∈ Finset.range n, ∑ cc, Real.exp (S j cc)) : ℝ) : EReal) := by
  rw [out_apply]
  exact inv_final S V hn hinv d

end Cert.KernelIdeal.RowStep

end
-- ==== Proof.Spec.lean ====
/-
  Attention without scaling, as one function of the three argument arrays, index by index, over the reals.

  For a head (b, h), a query row r and an output column d, with scores s c = Σ_e q[b,h,r,e] · k[b,h,c,e] against
  every key row c, the result is (Σ_c exp (s c) · v[b,h,c,d]) / (Σ_c exp (s c)). Subtracting any real number from
  every score of a row changes neither sum's quotient, so the row maximum that both programs subtract before
  exponentiating does not appear here.
-/
import Idealize.ShloMosaic.PureOps.Ideal
import Idealize.ShloMosaic.Lib.ValueIdx

noncomputable section

namespace Cert.Attn

open Idealize.ShloMosaic Idealize.ShloMosaic.ValueIdx

/-- The shape of each of q, k, v and of the result: batch, head, sequence position, feature. -/
abbrev QKV : Shape := ⟨4, ![2, 16, 2048, 128]⟩

/-- The score of query row `r` against key row `c` in head `(b, h)`: their inner product over the 128 features. -/
def score (q k : QKV.Idx → ℝ) (b : Fin 2) (h : Fin 16) (r c : Fin 2048) : ℝ :=
  ∑ e : Fin 128, q (ix4 b h r e) * k (ix4 b h c e)

/-- Softmax attention at one output element: the exp-weighted mean of column `d` of v over all key rows. -/
def attn (q k v : QKV.Idx → ℝ) (b : Fin 2) (h : Fin 16) (r : Fin 2048) (d : Fin 128) : ℝ :=
  (∑ c : Fin 2048, Real.exp (score q k b h r c) * v (ix4 b h c d)) / (∑ c : Fin 2048, Real.exp (score q k b h r c))

/-- An array of extended reals all of whose entries are real numbers. -/
def Finite (x : QKV.Idx → EReal) : Prop := ∀ i, x i = ((x i).toReal : ℝ)

/-- The result array as a function of the argument arrays read as extended reals (meaningful where they are finite). -/
def G (x0 x1 x2 : QKV.Idx → EReal) : QKV.Idx → EReal := fun i =>
  ((attn (fun j => (x0 j).toReal) (fun j => (x1 j).toReal) (fun j => (x2 j).toReal) (i 0) (i 1) (i 2) (i 3) : ℝ) : EReal)

end Cert.Attn

end
-- ==== Proof.Rows.lean ====
/-
  What the three carried buffers hold after every grid point, and what a head's last tile writes.

  Grid point t = 64 b + 4 h + j works on key tile j of head (b, h). With the argument arrays finite, write q, k, v
  for their real values; for query row r the scores of tile n are S n c = ⟨q[b,h,r,·], k[b,h,512 n + c,·]⟩ and the
  values V n c d = v[b,h,512 n + c,d]. By induction on t, after point t the buffers hold at every row r the state of
  the online softmax after j + 1 tiles of that head: the first tile of a head starts afresh, and a later tile
  continues from the point before, which belongs to the same head. At j = 3 all four tiles, that is all 2048 key
  rows, are in, and the output block is the softmax-weighted mean of v: the specification's value at (b, h, r, d).
-/
import proofs.«140605_j22265110462923_2_alg».proof.Proof.Blocks
import proofs.«140605_j22265110462923_2_alg».proof.Proof.RowStep
import proofs.«140605_j22265110462923_2_alg».proof.Proof.Spec

noncomputable section

open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen Cert.KernelIdeal.Value Cert.KernelIdeal.Blocks Cert.KernelIdeal.Pieces
open Cert.KernelIdeal.Step Cert.KernelIdeal.RowStep Cert.OnlineSoftmax Cert.Attn

variable (m : (ℓ : Loc nD τ sig) → Buf (Elt Ideal) ℓ) (c : Dev nD)

/-! ## Each case of a point, as the named update -/

/-- A head's first tile: the update from the constants −∞, 0, 0. -/
theorem state_first (t : Fin cfg0.N) (h0 : t.val % 4 = 0) (h1 : ¬t.val % 4 = 3) :
    (outsAt0 m c t.val t.isLt).2.1 = newMax (iblk m c 0 t) (iblk m c 1 t) (k0_pay4 (F := Ideal))
    ∧ (outsAt0 m c t.val t.isLt).2.2.1 = newNorm (iblk m c 0 t) (iblk m c 1 t) (k0_pay4 (F := Ideal)) (k0_pay5 (F := Ideal))
    ∧ (outsAt0 m c t.val t.isLt).2.2.2 = newAcc (iblk m c 0 t) (iblk m c 1 t) (iblk m c 2 t) (k0_pay4 (F := Ideal)) (k0_pay6 (F := Ideal)) := by
  rw [outsAt0_A m c t h0 h1]
  dsimp only
  refine ⟨?_, ?_, ?_⟩
  · exact first_max (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))
  · exact first_norm (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))
  · exact first_acc (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) ((hcond0_0 t).mpr h0) (fun h => h1 ((hcond0_1 t).mp h))

/-- A middle tile: the update from what the point before left. -/
theorem state_mid (t : Fin cfg0.N) (h0 : ¬t.val % 4 = 0) (h1 : ¬t.val % 4 = 3) :
    (outsAt0 m c t.val t.isLt).2.1 = newMax (iblk m c 0 t) (iblk m c 1 t) (outsAt0 m c (t.val - 1) (Nat.lt_of_le_of_lt (Nat.sub_le _ _) t.isLt)).2.1
    ∧ (outsAt0 m c t.val t.isLt).2.2.1 = newNorm (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = newAcc (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_B m c t h0 h1]
  dsimp only
  refine ⟨?_, ?_, ?_⟩
  · exact mid_max (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))
  · exact mid_norm (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))
  · exact mid_acc (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- A head's last tile: the same update, and the output block is the quotient of the new sums. -/
theorem state_last (t : Fin cfg0.N) (h0 : ¬t.val % 4 = 0) (h1 : t.val % 4 = 3) :
    (outsAt0 m c t.val t.isLt).2.1 = newMax (iblk m c 0 t) (iblk m c 1 t) (outsAt0 m c (t.val - 1) (Nat.lt_of_le_of_lt (Nat.sub_le _ _) t.isLt)).2.1
    ∧ (outsAt0 m c t.val t.isLt).2.2.1 = newNorm (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = newAcc (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2
    ∧ (outsAt0 m c t.val t.isLt).1 = k0_pay3 (newAcc (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2)
        (newNorm (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  dsimp only
  refine ⟨?_, ?_, ?_, ?_⟩
  · exact last_max (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact last_norm (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact last_acc (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact last_out (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

/-! ## The head's real data -/

/-- The three argument arrays as the region finds them. -/
abbrev X0 : QKV.Idx → EReal := m ((c : Thread nD τ).loc main_arg0)
abbrev X1 : QKV.Idx → EReal := m ((c : Thread nD τ).loc main_arg1)
abbrev X2 : QKV.Idx → EReal := m ((c : Thread nD τ).loc main_arg2)

/-- Their real values. -/
def qr : QKV.Idx → ℝ := fun i => (X0 m c i).toReal
def kr : QKV.Idx → ℝ := fun i => (X1 m c i).toReal
def vr : QKV.Idx → ℝ := fun i => (X2 m c i).toReal

/-- Key row 512 n + cc of a head (taken below 2048, which it is for n < 4). -/
def keyRow (n : ℕ) (cc : Fin 512) : Fin 2048 := ⟨(512 * n + cc.val) % 2048, Nat.mod_lt _ (by norm_num)⟩

/-- The scores of query row `r` of head (b, h) against tile `n`. -/
def S (b : Fin 2) (h : Fin 16) (r : Fin 2048) : ℕ → Fin 512 → ℝ := fun n cc => score (qr m c) (kr m c) b h r (keyRow n cc)

/-- The values of tile `n` of head (b, h). -/
def Vv (b : Fin 2) (h : Fin 16) : ℕ → Fin 512 → Fin 128 → ℝ := fun n cc d => vr m c (ix4 b h (keyRow n cc) d)

/-- The coercion of a finite sum of reals is the sum of the coercions. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- At point t the tile's scores at row `r` are the real scores of tile t % 4 of the point's head. -/
theorem tile_scores (hf0 : Finite (X0 m c)) (hf1 : Finite (X1 m c)) (t : Fin cfg0.N) (r : Fin 2048) (cc : Fin 512) :
    k0_pay7 (iblk m c 0 t) (iblk m c 1 t) (ix2 r cc) = ((S m c (hb t) (hh t) r (t.val % 4) cc : ℝ) : EReal) := by
  refine (score_apply (iblk m c 0 t) (iblk m c 1 t) r cc).trans ?_
  show _ = ((∑ e : Fin 128, qr m c (ix4 (hb t) (hh t) r e) * kr m c (ix4 (hb t) (hh t) (keyRow (t.val % 4) cc) e) : ℝ) : EReal)
  rw [coe_sum]
  refine Finset.sum_congr rfl fun e _ => ?_
  rw [q_block m c t r e, k_block m c t cc e, EReal.coe_mul]
  exact congrArg₂ (· * ·) (hf0 _) (hf1 _)

/-- At point t the block of v is the real values of tile t % 4 of the point's head. -/
theorem tile_values (hf2 : Finite (X2 m c)) (t : Fin cfg0.N) (cc : Fin 512) (d : Fin 128) :
    (iblk m c 2 t : Vec Ideal S1x1x512x128 .f32) (ix4 0 0 cc d) = ((Vv m c (hb t) (hh t) (t.val % 4) cc d : ℝ) : EReal) := by
  rw [v_block m c t cc d]
  exact hf2 _

/-! ## The induction over the grid points -/

/-- After point n, every row of the three buffers holds the online softmax's state after n % 4 + 1 tiles of the
    point's head. -/
theorem state_inv (hf0 : Finite (X0 m c)) (hf1 : Finite (X1 m c)) (hf2 : Finite (X2 m c)) :
    ∀ (n : ℕ) (hn : n < cfg0.N) (r : Fin 2048),
      Inv (S m c (hb ⟨n, hn⟩) (hh ⟨n, hn⟩) r) (Vv m c (hb ⟨n, hn⟩) (hh ⟨n, hn⟩)) (n % 4 + 1)
        ((outsAt0 m c n hn).2.1 (ix2 r 0)) ((outsAt0 m c n hn).2.2.1 (ix2 r 0)) (fun d => (outsAt0 m c n hn).2.2.2 (ix2 r d))
  | 0, hn, r => by
    obtain ⟨e1, e2, e3⟩ := state_first m c ⟨0, hn⟩ rfl (by show ¬((0 : ℕ) % 4 = 3); decide)
    rw [e1, e2, e3]
    exact row_first (iblk m c 0 ⟨0, hn⟩) (iblk m c 1 ⟨0, hn⟩) (iblk m c 2 ⟨0, hn⟩) _ _ r
      (fun cc => tile_scores m c hf0 hf1 ⟨0, hn⟩ r cc) (fun cc d => tile_values m c hf2 ⟨0, hn⟩ cc d)
  | n + 1, hn, r => by
    by_cases h0 : (n + 1) % 4 = 0
    · have h1 : ¬(n + 1) % 4 = 3 := by omega
      obtain ⟨e1, e2, e3⟩ := state_first m c ⟨n + 1, hn⟩ h0 h1
      rw [e1, e2, e3, h0]
      have hs := fun cc => tile_scores m c hf0 hf1 ⟨n + 1, hn⟩ r cc
      have hv := fun cc d => tile_values m c hf2 ⟨n + 1, hn⟩ cc d
      simp only [h0] at hs hv
      exact row_first (iblk m c 0 ⟨n + 1, hn⟩) (iblk m c 1 ⟨n + 1, hn⟩) (iblk m c 2 ⟨n + 1, hn⟩) _ _ r hs hv
    · have ih := state_inv hf0 hf1 hf2 n (Nat.lt_of_succ_lt hn) r
      have ehb : hb ⟨n, Nat.lt_of_succ_lt hn⟩ = hb ⟨n + 1, hn⟩ := Fin.ext (by show n / 64 = (n + 1) / 64; omega)
      have ehh : hh ⟨n, Nat.lt_of_succ_lt hn⟩ = hh ⟨n + 1, hn⟩ := Fin.ext (by show n / 4 % 16 = (n + 1) / 4 % 16; omega)
      have ecnt : n % 4 + 1 = (n + 1) % 4 := by omega
      rw [ehb, ehh, ecnt] at ih
      have hpos : 0 < (n + 1) % 4 := by omega
      have hs := fun cc => tile_scores m c hf0 hf1 ⟨n + 1, hn⟩ r cc
      have hv := fun cc d => tile_values m c hf2 ⟨n + 1, hn⟩ cc d
      by_cases h1 : (n + 1) % 4 = 3
      · obtain ⟨e1, e2, e3, _⟩ := state_last m c ⟨n + 1, hn⟩ h0 h1
        rw [e1, e2, e3]
        exact row_step (iblk m c 0 ⟨n + 1, hn⟩) (iblk m c 1 ⟨n + 1, hn⟩) (iblk m c 2 ⟨n + 1, hn⟩) _ _ r hpos _ _ _ ih hs hv
      · obtain ⟨e1, e2, e3⟩ := state_mid m c ⟨n + 1, hn⟩ h0 h1
        rw [e1, e2, e3]
        exact row_step (iblk m c 0 ⟨n + 1, hn⟩) (iblk m c 1 ⟨n + 1, hn⟩) (iblk m c 2 ⟨n + 1, hn⟩) _ _ r hpos _ _ _ ih hs hv

/-! ## A head's last tile writes the specification's values; the result array -/

/-- At a head's last tile the output block holds, at (0, 0, r, d), attention at (b, h, r, d): all four tiles — all
    2048 key rows — are in the state, and the quotient of the two sums is the softmax-weighted mean. -/
theorem last_tile (hf0 : Finite (X0 m c)) (hf1 : Finite (X1 m c)) (hf2 : Finite (X2 m c)) (t : Fin cfg0.N) (h3 : t.val % 4 = 3)
    (r : Fin 2048) (d : Fin 128) :
    ((outsAt0 m c t.val t.isLt).1 : Vec Ideal S1x1x2048x128 .f32) (ix4 0 0 r d)
      = G (X0 m c) (X1 m c) (X2 m c) (ix4 (hb t) (hh t) r d) := by
  have h0 : ¬t.val % 4 = 0 := by omega
  obtain ⟨e1, e2, e3, e4⟩ := state_last m c t h0 h3
  have hinv := state_inv m c hf0 hf1 hf2 t.val t.isLt r
  rw [e1, e2, e3] at hinv
  rw [e4]
  have h4 : t.val % 4 + 1 = 4 := by omega
  rw [h4] at hinv
  refine (row_out (S m c (hb t) (hh t) r) (Vv m c (hb t) (hh t)) r (by norm_num : 0 < 4) _ _ _ hinv d).trans ?_
  show _ = ((attn (qr m c) (kr m c) (vr m c) (hb t) (hh t) r d : ℝ) : EReal)
  refine congrArg (fun x : ℝ => (x : EReal)) ?_
  unfold attn
  rw [← sum_tiles (fun k => Real.exp (score (qr m c) (kr m c) (hb t) (hh t) r k) * vr m c (ix4 (hb t) (hh t) k d)),
    ← sum_tiles (fun k => Real.exp (score (qr m c) (kr m c) (hb t) (hh t) r k))]
  rfl

/-- The result array after the run is the specification of the argument arrays, when these are finite. -/
theorem kernel_eq_G (hf0 : Finite (X0 m c)) (hf1 : Finite (X1 m c)) (hf2 : Finite (X2 m c)) :
    (dats m 0 c).arrAt 3 cfg0.N = G (X0 m c) (X1 m c) (X2 m c) :=
  final_of_last m c (G (X0 m c) (X1 m c) (X2 m c)) (fun t h3 r d => last_tile m c hf0 hf1 hf2 t h3 r d)

end Cert.KernelIdeal.Rows

end
-- ==== Proof.RefValue.lean ====
/-
  The reference, read at an index, is the specification.

  At an output element (b, h, r, d) the reference forms the scores s c = Σ_e q[b,h,r,e] · k[b,h,c,e] of row r, their
  maximum M taken from −∞ (a real number, the row being non-empty and the inputs finite), the weights exp (s c − M), the
  normaliser 0 + Σ_c exp (s c − M), each weight divided by the normaliser, and the sum of the quotients times v[b,h,c,d].
  Softmax is invariant under the shift M, so this is (Σ_c exp (s c) · v[b,h,c,d]) / (Σ_c exp (s c)).
-/
import proofs.«140605_j22265110462923_2_alg».proof.Proof.Gen.ReferenceIdeal.Read
import proofs.«140605_j22265110462923_2_alg».proof.Proof.Spec
import proofs.«140605_j22265110462923_2_alg».proof.Proof.LibOnlineSoftmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

/-- The pattern 0xFF800000 denotes −∞. -/
theorem ofBits_neg_inf : Ideal.ofBits .f32 0xFF800000#32 = (⊥ : EReal) := by
  simp [Ideal.ofBits, Ideal.ieee]

/-- The coercion of a finite sum of reals is the sum of the coercions. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A score of the reference at finite arguments is the real inner product. -/
theorem score_eq (x0 x1 : QKV.Idx → EReal) (h0 : Finite x0) (h1 : Finite x1) (b : Fin 2) (h : Fin 16) (r c : Fin 2048) :
    val_main_v0 (F := Ideal) x0 x1 (ix4 b h r c)
      = ((score (fun j => (x0 j).toReal) (fun j => (x1 j).toReal) b h r c : ℝ) : EReal) := by
  rw [val_main_v0_apply]
  unfold score
  rw [coe_sum]
  refine Finset.sum_congr rfl fun e _ => ?_
  have el : lidx_main_v0 (ix4 b h r c) e = ix4 b h r e := funext fun a => Fin.ext (by
    match a with | ⟨0, _⟩ => rfl | ⟨1, _⟩ => rfl | ⟨2, _⟩ => rfl | ⟨3, _⟩ => rfl)
  have er : ridx_main_v0 (ix4 b h r c) e = ix4 b h c e := funext fun a => Fin.ext (by
    match a with | ⟨0, _⟩ => rfl | ⟨1, _⟩ => rfl | ⟨2, _⟩ => rfl | ⟨3, _⟩ => rfl)
  rw [el, er, EReal.coe_mul, ← h0, ← h1]

/-- The reduced index (b, h, r) with column k put back is (b, h, r, k). -/
theorem lift_ix3 (hR : S2x16x2048x2048.Reduces [3] S2x16x2048) (b : Fin 2) (h : Fin 16) (r : Fin 2048)
    (k : Fin (S2x16x2048x2048.size 3)) : hR.lift (ix3 b h r) k = ix4 b h r (⟨k.val, k.isLt⟩ : Fin 2048) := by
  funext c; apply Fin.ext
  fin_cases c <;> rfl

/-- The row maximum the reference subtracts is a real number. -/
theorem rowmax_eq (x0 x1 : QKV.Idx → EReal) (h0 : Finite x0) (h1 : Finite x1) (b : Fin 2) (h : Fin 16) (r : Fin 2048) :
    ∃ M : ℝ, val_main_v3 (F := Ideal) x0 x1 (ix3 b h r) = (M : EReal) := by
  haveI : Nonempty (Fin 2048) := ⟨⟨0, by norm_num⟩⟩
  obtain ⟨M, hM⟩ := Cert.OnlineSoftmax.fold_max_coe
    (fun c : Fin 2048 => score (fun j => (x0 j).toReal) (fun j => (x1 j).toReal) b h r c)
  refine ⟨M, ?_⟩
  have hR : S2x16x2048x2048.Reduces [3] S2x16x2048 := by decide
  rw [val_main_v3_apply, val_main_v2_apply, val_main_cst_0_apply]
  unfold val_main_v1
  rw [Host.reduce_eq_fold_single FloatOps.maximumf _ _ reducesTo_S2x16x2048x2048_S2x16x2048_d3 hR h_S_, val_main_cst_apply]
  simp only [Ideal.ofBits_def, Ideal.maximumf_def, ofBits_neg_inf]
  rw [max_eq_right bot_le]
  refine Eq.trans ?_ hM
  have hf : (fun x => (val_main_v0 (F := Ideal) x0 x1 ∘ hR.lift (ix3 b h r)) x)
      = fun k : Fin 2048 => ((score (fun j => (x0 j).toReal) (fun j => (x1 j).toReal) b h r k : ℝ) : EReal) :=
    funext fun k => by
      show val_main_v0 (F := Ideal) x0 x1 (hR.lift (ix3 b h r) k) = _
      rw [lift_ix3, score_eq x0 x1 h0 h1]
      rfl
  exact congrArg (fun f => Finset.fold max (⊥ : EReal) f (Finset.univ : Finset (Fin 2048))) hf

/-- An exponentiated shifted score of the reference, given the row maximum. -/
theorem v7_eq (x0 x1 : QKV.Idx → EReal) (h0 : Finite x0) (h1 : Finite x1) (b : Fin 2) (h : Fin 16) (r : Fin 2048)
    (M : ℝ) (hM : val_main_v3 (F := Ideal) x0 x1 (ix3 b h r) = (M : EReal)) (c : Fin 2048) :
    val_main_v7 (F := Ideal) x0 x1 (ix4 b h r c)
      = Ideal.exp (((score (fun j => (x0 j).toReal) (fun j => (x1 j).toReal) b h r c : ℝ) : EReal) - (M : EReal)) := by
  have e45 : idx_main_v4 (idx_main_v5 (ix4 b h r c)) = ix3 b h r := funext fun a => Fin.ext (by
    match a with | ⟨0, _⟩ => rfl | ⟨1, _⟩ => rfl | ⟨2, _⟩ => rfl)
  rw [val_main_v7_apply, val_main_v6_apply, val_main_v5_apply, val_main_v4_apply, e45, hM, score_eq x0 x1 h0 h1]
  simp only [Ideal.hostUnary_exp_def, Ideal.subf_def]

/-- The normaliser of the reference, given the row maximum. -/
theorem v10_eq (x0 x1 : QKV.Idx → EReal) (h0 : Finite x0) (h1 : Finite x1) (b : Fin 2) (h : Fin 16) (r : Fin 2048)
    (M : ℝ) (hM : val_main_v3 (F := Ideal) x0 x1 (ix3 b h r) = (M : EReal)) (c : Fin 2048) :
    val_main_v10 (F := Ideal) x0 x1 (ix4 b h r c)
      = 0 + ∑ k : Fin 2048,
          Ideal.exp (((score (fun j => (x0 j).toReal) (fun j => (x1 j).toReal) b h r k : ℝ) : EReal) - (M : EReal)) := by
  have e910 : idx_main_v9 (idx_main_v10 (ix4 b h r c)) = ix3 b h r := funext fun a => Fin.ext (by
    match a with | ⟨0, _⟩ => rfl | ⟨1, _⟩ => rfl | ⟨2, _⟩ => rfl)
  have e8 : ∀ k : Fin 2048, idx_main_v8 (ix3 b h r) k = ix4 b h r k := fun k => funext fun a => Fin.ext (by
    match a with | ⟨0, _⟩ => rfl | ⟨1, _⟩ => rfl | ⟨2, _⟩ => rfl | ⟨3, _⟩ => rfl)
  rw [val_main_v10_apply, val_main_v9_apply, e910, val_main_v8_apply, val_main_cst_1_apply]
  simp only [Ideal.ofBits_def, Ideal.ofBits_zero_f32]
  refine congrArg (0 + ·) (Finset.sum_congr rfl fun k _ => ?_)
  rw [e8, v7_eq x0 x1 h0 h1 b h r M hM]

/-- The reference is the specification: softmax attention with the row maximum cancelled. -/
theorem ref_eq_G (x0 x1 x2 : Cert.Attn.QKV.Idx → EReal) (h0 : Cert.Attn.Finite x0) (h1 : Cert.Attn.Finite x1)
    (h2 : Cert.Attn.Finite x2) :
    Cert.ReferenceIdeal.Read.val_main_v12 (F := Ideal) x0 x1 x2 = Cert.Attn.G x0 x1 x2 := by
  funext i
  obtain ⟨b, h, r, d, rfl⟩ : ∃ (b : Fin 2) (h : Fin 16) (r : Fin 2048) (d : Fin 128), i = ix4 b h r d :=
    ⟨i 0, i 1, i 2, i 3, eq_ix4 i⟩
  haveI : Nonempty (Fin 2048) := ⟨⟨0, by norm_num⟩⟩
  obtain ⟨M, hM⟩ := rowmax_eq x0 x1 h0 h1 b h r
  have el : ∀ k : Fin 2048, lidx_main_v12 (ix4 b h r d) k = ix4 b h r k := fun k => funext fun a => Fin.ext (by
    match a with | ⟨0, _⟩ => rfl | ⟨1, _⟩ => rfl | ⟨2, _⟩ => rfl | ⟨3, _⟩ => rfl)
  have er : ∀ k : Fin 2048, ridx_main_v12 (ix4 b h r d) k = ix4 b h k d := fun k => funext fun a => Fin.ext (by
    match a with | ⟨0, _⟩ => rfl | ⟨1, _⟩ => rfl | ⟨2, _⟩ => rfl | ⟨3, _⟩ => rfl)
  rw [val_main_v12_apply]
  show _ = ((attn (fun j => (x0 j).toReal) (fun j => (x1 j).toReal) (fun j => (x2 j).toReal) b h r d : ℝ) : EReal)
  unfold attn
  rw [← Cert.OnlineSoftmax.softmax_shift
    (fun c : Fin 2048 => score (fun j => (x0 j).toReal) (fun j => (x1 j).toReal) b h r c)
    (fun c : Fin 2048 => (x2 (ix4 b h c d)).toReal) M]
  refine Finset.sum_congr rfl fun k _ => ?_
  rw [el, er, val_main_v11_apply, v7_eq x0 x1 h0 h1 b h r M hM, v10_eq x0 x1 h0 h1 b h r M hM, ← h2]
  simp only [Ideal.hostDivf_def]

end Cert.ReferenceIdeal.RefValue

end
-- ==== Proof.Finite.lean ====
/-
  The precondition, decoded: every entry of the three argument arrays is a real number.

  The precondition is the conjunction of three tests, one per array, each the conjunction over all entries x of
  |x| < +∞, where |x| = max x (−x) on the extended reals. An extended real with max x (−x) < +∞ is neither −∞ nor +∞.
-/
import proofs.«140605_j22265110462923_2_alg».proof.Defs
import proofs.«140605_j22265110462923_2_alg».proof.Proof.Gen.Pre_finite_inputs
import proofs.«140605_j22265110462923_2_alg».proof.Proof.Spec
import Idealize.ShloMosaic.Lib.ReduceAll

noncomputable section

namespace Cert.Attn

open Idealize.ShloMosaic Idealize.ShloMosaic.ValueIdx Idealize.SL.Sem

instance : Subsingleton Cert.Pre_finite_inputs.S_.Idx := ⟨fun a b => funext fun d => d.elim0⟩

/-- The pattern 0x7F800000 denotes +∞. -/
theorem ofBits_pos_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    x = ((x.toReal : ℝ) : EReal) := by
  rw [ofBits_pos_inf] at h
  induction x using EReal.rec with
  | bot => exact absurd h (by simp [Ideal.cmp])
  | coe r => rfl
  | top => exact absurd h (by simp [Ideal.cmp])

/-- One array's test read back: a conjunction over all entries of |x| < +∞ that holds makes every entry of x real. -/
theorem finite_of_all [Cert.Pre_finite_inputs.Facts] (x : QKV.Idx → EReal)
    (hb : Cert.Pre_finite_inputs.S_.BroadcastsInDim Cert.Pre_finite_inputs.S2x16x2048x128 (![] : Fin 0 → Fin Cert.Pre_finite_inputs.S2x16x2048x128.rank))
    (init : Cert.Pre_finite_inputs.S_.Idx → BitVec 1)
    (h' : Cert.Pre_finite_inputs.S2x16x2048x128.ReducesTo [0, 1, 2, 3] Cert.Pre_finite_inputs.S_)
    (hu : 0 < Cert.Pre_finite_inputs.S_.numel)
    (e : Host.reduce IntOp.andi
          (cmpf (F := Ideal) CmpFPredicate.olt (Host.absf (F := Ideal) (φ := .f32) (s := Cert.Pre_finite_inputs.S2x16x2048x128) x)
            (broadcastInDim Cert.Pre_finite_inputs.S2x16x2048x128 ![] hb
              (constant (F := Ideal) Cert.Pre_finite_inputs.S_ FTy.f32 0x7F800000#32)))
          init h' hu ix0 = 1#1) : Finite x := by
  intro i
  have ei := Host.reduce_andi_all _ _ _ _ _ e i
  apply real_of_abs_lt
  refine Eq.trans ?_ ei
  show _ = Ideal.cmp .olt (max (x i) (-(x i))) _
  congr 1

/-- The three tests together: the printed predicate being all ones makes all three arrays finite. -/
theorem finite_of_fn [Cert.Pre_finite_inputs.Facts] (x0 x1 x2 : QKV.Idx → EReal)
    (h : Cert.Pre_finite_inputs.fn (F := Ideal) x0 x1 x2 = (fun _ => 1#1)) : Finite x0 ∧ Finite x1 ∧ Finite x2 := by
  have e := congrFun h ValueIdx.ix0
  dsimp only [Cert.Pre_finite_inputs.fn] at e
  change IntOp.andi (IntOp.andi _ _) _ = 1#1 at e
  rw [IntOp.andi_eq_one, IntOp.andi_eq_one] at e
  obtain ⟨⟨e0, e1⟩, e2⟩ := e
  exact ⟨finite_of_all x0 _ _ _ _ e0, finite_of_all x1 _ _ _ _ e1, finite_of_all x2 _ _ _ _ e2⟩

/-- The precondition of the kernel's launch memory, decoded: on every device the three argument arrays hold real numbers. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Attn.Finite (m ((c.tc : Thread Cert.KernelIdeal.nD Cert.KernelIdeal.τ).loc Cert.KernelIdeal.main_arg0))
      ∧ Cert.Attn.Finite (m ((c.tc : Thread _ _).loc Cert.KernelIdeal.main_arg1))
      ∧ Cert.Attn.Finite (m ((c.tc : Thread _ _).loc Cert.KernelIdeal.main_arg2)) :=
  finite_of_fn _ _ _ (hpre c)

end Cert.Attn

end
-- ==== Proof.lean ====
/- Attention without scaling, softmax(Q Kᵀ) V, per head. The kernel sweeps a head's 2048 key rows in four tiles of
   512 with a running row maximum, a running normaliser and a running weighted sum, rescaling the two sums by
   exp (old maximum − new maximum) at every tile, and divides at the last tile; the reference forms the whole score
   matrix, subtracts each row's maximum, exponentiates, divides by the row's sum and multiplies by V. Over the
   extended reals and for finite inputs both are, at (b, h, r, d),
       (Σ_c exp (s c) · v[b,h,c,d]) / (Σ_c exp (s c)),   s c = Σ_e q[b,h,r,e] · k[b,h,c,e],
   because subtracting a real number from every score of a row multiplies both sums by the same positive factor, and
   because exp (M − M') · exp (x − M) = exp (x − M') makes the rescaled partial sums the partial sums at the new
   maximum. Finiteness of the inputs is what makes every maximum a real number and every normaliser positive.

   The three frames: the two kernel programs' are the generated frame runs; the reference's is its run with the result
   dropped. The idealization rewrote nothing. For the equivalence, the kernel's result array after the run is the
   specification by the induction over the grid points and the cover of the array by the heads' last-tile blocks; the
   reference's result is the same specification, one operation read at a time. -/
import proofs.«140605_j22265110462923_2_alg».proof.Defs
import proofs.«140605_j22265110462923_2_alg».proof.Proof.Gen.Kernel
import proofs.«140605_j22265110462923_2_alg».proof.Proof.Gen.Kernel.Skeleton
import proofs.«140605_j22265110462923_2_alg».proof.Proof.Gen.Kernel.Launch
import proofs.«140605_j22265110462923_2_alg».proof.Proof.Gen.Kernel.Points
import proofs.«140605_j22265110462923_2_alg».proof.Proof.Gen.Kernel.Frame
import proofs.«140605_j22265110462923_2_alg».proof.Proof.Gen.KernelIdeal
import proofs.«140605_j22265110462923_2_alg».proof.Proof.Gen.KernelIdeal.Skeleton
import proofs.«140605_j22265110462923_2_alg».proof.Proof.Gen.KernelIdeal.Launch
import proofs.«140605_j22265110462923_2_alg».proof.Proof.Gen.KernelIdeal.Points
import proofs.«140605_j22265110462923_2_alg».proof.Proof.Gen.KernelIdeal.Frame
import proofs.«140605_j22265110462923_2_alg».proof.Proof.Gen.KernelIdeal.Value
import proofs.«140605_j22265110462923_2_alg».proof.Proof.Gen.ReferenceIdeal
import proofs.«140605_j22265110462923_2_alg».proof.Proof.Gen.ReferenceIdeal.Run
import proofs.«140605_j22265110462923_2_alg».proof.Proof.Gen.ReferenceIdeal.Read
import proofs.«140605_j22265110462923_2_alg».proof.Proof.Gen.Pre_finite_inputs
import proofs.«140605_j22265110462923_2_alg».proof.Proof.Rows
import proofs.«140605_j22265110462923_2_alg».proof.Proof.RefValue
import proofs.«140605_j22265110462923_2_alg».proof.Proof.Finite
import Idealize.ShloMosaic.Adequacy
import Idealize.ShloMosaic.Init

noncomputable section

namespace Cert.Proof

open Idealize.ShloMosaic Idealize.SL.Sem Cert.Kernel

/-- Both idealized programs end with the specification's value of the (shared, finite) argument arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Value.run_blocks m ρ)
    obtain ⟨f0, f1, f2⟩ := Cert.Attn.finite_of_pre m hpre c
    exact Cert.KernelIdeal.Rows.kernel_eq_G m c f0 f1 f2
  · refine (θ_run Cert.ReferenceIdeal.defs _ _).mono (fun r h c => ⟨(h c).1.trans ?_, (h c).2⟩)
      (Cert.ReferenceIdeal.Value.run (F := Ideal) m' ρ')
    obtain ⟨f0, f1, f2⟩ := Cert.Attn.finite_of_pre m hpre c
    rw [(hagree c).1, (hagree c).2.1, (hagree c).2.2]
    exact (Cert.ReferenceIdeal.Read.val_main_v12_eq _ _ _).trans (Cert.ReferenceIdeal.RefValue.ref_eq_G _ _ _ f0 f1 f2)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
